-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x512 : Shape := ⟨3, ![256, 2048, 512]⟩
abbrev S512x1 : Shape := ⟨2, ![512, 1]⟩
abbrev S2048x1 : Shape := ⟨2, ![2048, 1]⟩
abbrev S_ : Shape := ⟨0, ![]⟩

class Facts : Prop where
  bcast_S_S256x2048x512 : S_.BroadcastsInDim S256x2048x512 (![] : Fin 0 → Fin S256x2048x512.rank)
  reducesTo_S256x2048x512_S_d0_1_2 : S256x2048x512.ReducesTo [0, 1, 2] S_
  h_S_ : 0 < S_.numel
  bcast_S_S512x1 : S_.BroadcastsInDim S512x1 (![] : Fin 0 → Fin S512x1.rank)
  reducesTo_S512x1_S_d0_1 : S512x1.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn {F : FTy → Type} [FloatOps F] (main_arg0 : FVec F S256x2048x512 .f32) (main_arg1 : FVec F S512x1 .f32) (main_arg2 : FVec F S2048x1 .f32) : IVec S_ 1 :=
  let main_v0 : FVec F S256x2048x512 .f32 := Host.absf main_arg0
  let main_cst : FVec F S_ .f32 := constant S_ .f32 0x7F800000#32
  let main_v1 : FVec F S256x2048x512 .f32 := broadcastInDim S256x2048x512 ![] bcast_S_S256x2048x512 main_cst
  let main_v2 : IVec S256x2048x512 1 := cmpf .olt main_v0 main_v1
  let main_c : IVec S_ 1 := constantI S_ 1 1#1
  let main_v3 : IVec S_ 1 := (fun x v => Host.reduce IntOp.andi x v reducesTo_S256x2048x512_S_d0_1_2 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  main_v13
-- ==== Kernel.lean ====
abbrev S256x2048x512 : Shape := ⟨3, ![256, 2048, 512]⟩
abbrev S512x1 : Shape := ⟨2, ![512, 1]⟩
abbrev S2048x1 : Shape := ⟨2, ![2048, 1]⟩
abbrev S1x2048x1 : Shape := ⟨3, ![1, 2048, 1]⟩
abbrev S256x512 : Shape := ⟨2, ![256, 512]⟩
abbrev S32x256x512 : Shape := ⟨3, ![32, 256, 512]⟩
abbrev S1x256x1 : Shape := ⟨3, ![1, 256, 1]⟩
abbrev S32x512 : Shape := ⟨2, ![32, 512]⟩
abbrev S32x1 : Shape := ⟨2, ![32, 1]⟩
abbrev S8192x512 : Shape := ⟨2, ![8192, 512]⟩
abbrev S8192x1 : Shape := ⟨2, ![8192, 1]⟩
abbrev S32x256x1 : Shape := ⟨3, ![32, 256, 1]⟩
abbrev S32x1x256 : Shape := ⟨3, ![32, 1, 256]⟩
abbrev S32x1x512 : Shape := ⟨3, ![32, 1, 512]⟩

abbrev nBuf : Space → Nat
  | .hbm => 5
  | .vmem => 9
  | .smem => 0
  | _ => 0

abbrev bufTy : (tb : Table) → Fin (tcTables nBuf tb) → BufTy
  | .hbm, ⟨0, _⟩ => ⟨S256x2048x512, .f32⟩
  | .hbm, ⟨1, _⟩ => ⟨S512x1, .f32⟩
  | .hbm, ⟨2, _⟩ => ⟨S2048x1, .f32⟩
  | .hbm, ⟨3, _⟩ => ⟨S1x2048x1, .f32⟩
  | .hbm, ⟨4, _⟩ => ⟨S256x512, .f32⟩
  | .local _ .vmem, ⟨0, _⟩ => ⟨S32x256x512, .f32⟩
  | .local _ .vmem, ⟨1, _⟩ => ⟨S32x256x512, .f32⟩
  | .local _ .vmem, ⟨2, _⟩ => ⟨S512x1, .f32⟩
  | .local _ .vmem, ⟨3, _⟩ => ⟨S1x256x1, .f32⟩
  | .local _ .vmem, ⟨4, _⟩ => ⟨S1x256x1, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x1, .f32⟩
  | _, _ => ⟨S256x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_18 : BitVec 32 := 0#32
  let v30 : BitVec 1 := Scalar.cmpi .ne v29 c0_i32_18
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048x1_S1x2048x1 : S2048x1.ShapeCasts S1x2048x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x256x512_S32x256x512_0_0_0 : ∀ a, (![0, 0, 0] : Fin 3 → Nat) a + S32x256x512.size a ≤ S32x256x512.size a
  h_S32x256x512 : 0 < S32x256x512.numel
  shapeCasts_S32x256x512_S8192x512 : S32x256x512.ShapeCasts S8192x512
  inb_S512x1_S512x1_0_0 : ∀ a, (![0, 0] : Fin 2 → Nat) a + S512x1.size a ≤ S512x1.size a
  h_S512x1 : 0 < S512x1.numel
  shapeCasts_S8192x1_S32x256x1 : S8192x1.ShapeCasts S32x256x1
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S32x256x1 : S1x256x1.Broadcasts S32x256x1
  reduces_S32x256x1_S32x1 : S32x256x1.Reduces [1] S32x1
  transposes_S32x256x1_p0_2_1_S32x1x256 : S32x256x1.Transposes [0, 2, 1] S32x1x256
  shapeCasts_S32x1x512_S32x512 : S32x1x512.ShapeCasts S32x512
  broadcasts_S32x1_S32x512 : S32x1.Broadcasts S32x512
  dot_S8192x512_S512x1_S8192x1_1_0_0_1_n_n_wf : DotDims.WF S8192x512 S512x1 S8192x1 [1] [0] [0] [1] [] []
  dot_S32x1x256_S32x256x512_S32x1x512_2_1_1_2_0_0_wf : DotDims.WF S32x1x256 S32x256x512 S32x1x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x512.size a ≤ S256x2048x512.size a
  hwx0_0 : ∀ i : grid0.Coords, EltTy.bits .f32 = 32 ∨ (Rect.block (s := S256x2048x512) S32x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S1x2048x1.size a
  hwx0_2 : ∀ i : grid0.Coords, EltTy.bits .f32 = 32 ∨ (Rect.block (s := S1x2048x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S256x512.size a
  hwx0_3 : ∀ i : grid0.Coords, EltTy.bits .f32 = 32 ∨ (Rect.block (s := S256x512) S32x512.size (cc0_transform_3 i) (hinb0_3 i)).WholeWords (EltTy.packing .f32)

variable [Facts₀]

def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def dot_S32x1x256_S32x256x512_S32x1x512_2_1_1_2_0_0 : DotDims S32x1x256 S32x256x512 S32x1x512 where
  lhsContracting := [2]
  rhsContracting := [1]
  lhsNonContracting := [1]
  rhsNonContracting := [2]
  lhsBatch := [0]
  rhsBatch := [0]
  wf := dot_S32x1x256_S32x256x512_S32x1x512_2_1_1_2_0_0_wf

abbrev win0_0 : Pipeline.Window sig grid0 :=
  Pipeline.Window.ofSpec (Memref.whole main_arg0) S32x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x2048x512 : Shape := ⟨3, ![256, 2048, 512]⟩
abbrev S512x1 : Shape := ⟨2, ![512, 1]⟩
abbrev S2048x1 : Shape := ⟨2, ![2048, 1]⟩
abbrev S256x2048x1 : Shape := ⟨3, ![256, 2048, 1]⟩
abbrev S1x2048x1 : Shape := ⟨3, ![1, 2048, 1]⟩
abbrev S_ : Shape := ⟨0, ![]⟩
abbrev S256x1 : Shape := ⟨2, ![256, 1]⟩
abbrev S256x1x1 : Shape := ⟨3, ![256, 1, 1]⟩
abbrev S256x512 : Shape := ⟨2, ![256, 512]⟩

abbrev nBuf : Space → Nat
  | .hbm => 26
  | .vmem => 0
  | .smem => 0
  | _ => 0

abbrev bufTy : (tb : Table) → Fin (tcTables nBuf tb) → BufTy
  | .hbm, ⟨0, _⟩ => ⟨S256x2048x512, .f32⟩
  | .hbm, ⟨1, _⟩ => ⟨S512x1, .f32⟩
  | .hbm, ⟨2, _⟩ => ⟨S2048x1, .f32⟩
  | .hbm, ⟨3, _⟩ => ⟨S256x2048x1, .f32⟩
  | .hbm, ⟨4, _⟩ => ⟨S1x2048x1, .f32⟩
  | .hbm, ⟨5, _⟩ => ⟨S256x2048x1, .f32⟩
  | .hbm, ⟨6, _⟩ => ⟨S256x2048x1, .f32⟩
  | .hbm, ⟨7, _⟩ => ⟨S256x2048x1, .f32⟩
  | .hbm, ⟨8, _⟩ => ⟨S_, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1x1, .f32⟩
  | .hbm, ⟨14, _⟩ => ⟨S256x2048x1, .f32⟩
  | .hbm, ⟨15, _⟩ => ⟨S256x2048x1, .f32⟩
  | .hbm, ⟨16, _⟩ => ⟨S256x2048x1, .f32⟩
  | .hbm, ⟨17, _⟩ => ⟨S_, .f32⟩
  | .hbm, ⟨18, _⟩ => ⟨S256x1, .f32⟩
  | .hbm, ⟨19, _⟩ => ⟨S256x1x1, .f32⟩
  | .hbm, ⟨20, _⟩ => ⟨S256x2048x1, .f32⟩
  | .hbm, ⟨21, _⟩ => ⟨S256x2048x1, .f32⟩
  | .hbm, ⟨22, _⟩ => ⟨S256x2048x512, .f32⟩
  | .hbm, ⟨23, _⟩ => ⟨S256x2048x512, .f32⟩
  | .hbm, ⟨24, _⟩ => ⟨S_, .f32⟩
  | .hbm, ⟨25, _⟩ => ⟨S256x512, .f32⟩
  | _, _ => ⟨S256x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S2048x1_S1x2048x1_1_2 : S2048x1.BroadcastsInDim S1x2048x1 (![1, 2] : Fin 2 → Fin S1x2048x1.rank)
  bcast_S1x2048x1_S256x2048x1_0_1_2 : S1x2048x1.BroadcastsInDim S256x2048x1 (![0, 1, 2] : Fin 3 → Fin S256x2048x1.rank)
  reducesTo_S256x2048x1_S256x1_d1 : S256x2048x1.ReducesTo [1] S256x1
  h_S_ : 0 < S_.numel
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x2048x1_0_1_2 : S256x1x1.BroadcastsInDim S256x2048x1 (![0, 1, 2] : Fin 3 → Fin S256x2048x1.rank)
  bcast_S256x2048x1_S256x2048x512_0_1_2 : S256x2048x1.BroadcastsInDim S256x2048x512 (![0, 1, 2] : Fin 3 → Fin S256x2048x512.rank)
  reducesTo_S256x2048x512_S256x512_d1 : S256x2048x512.ReducesTo [1] S256x512
  dot_S256x2048x512_S512x1_S256x2048x1_2_0_01_1_n_n_wf : DotDims.WF S256x2048x512 S512x1 S256x2048x1 [2] [0] [0, 1] [1] [] []

variable [Facts₀]

def dot_S256x2048x512_S512x1_S256x2048x1_2_0_01_1_n_n : DotDims S256x2048x512 S512x1 S256x2048x1 where
  lhsContracting := [2]
  rhsContracting := [0]
  lhsNonContracting := [0, 1]
  rhsNonContracting := [1]
  lhsBatch := []
  rhsBatch := []
  wf := dot_S256x2048x512_S512x1_S256x2048x1_2_0_01_1_n_n_wf

class Facts : Prop extends Facts₀ where

variable [Facts]
-- ==== Proof.Pool.lean ====
/-
  Attention pooling over the time axis, as functions of the three argument arrays x[256, 2048, 512], W[512, 1]
  and b[2048, 1] over the extended reals.

  For a batch row r and a time step t the score is  s(r, t) = sum_u x(r, t, u) * W(u, 0),  the activation
  a(r, t) = tanh (s(r, t) + b(t, 0))  and the weight  e^(a(r, t)).

  * `pooled` : the weighted mean  (sum_t e^(a(r,t)) * x(r,t,u)) / (sum_t e^(a(r,t))),  with both sums taken tile by
    tile over the eight tiles of 256 consecutive time steps.
  * `softPooled` : the same mean written as  sum_t x(r,t,u) * softmax_t (a(r, .)),  the softmax shifted by a per-row
    value M(r):  e^(a(r,t) - M(r)) / sum_s e^(a(r,s) - M(r)).

  When every entry of the three arrays is a real number and every M(r) is a real number the two agree: the factor
  e^(-M(r)) cancels between numerator and denominator of the softmax, and the division by the (positive, real)
  normalizer leaves the sum over t.  Both steps need finiteness: they fail at infinite entries.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

abbrev SX : Shape := ⟨3, ![256, 2048, 512]⟩
abbrev SW : Shape := ⟨2, ![512, 1]⟩
abbrev SB : Shape := ⟨2, ![2048, 1]⟩
abbrev SO : Shape := ⟨2, ![256, 512]⟩

/-- Row b of batch tile i. -/
abbrev row (i : Fin 8) (b : Fin 32) : Fin 256 := ⟨32 * i.val + b.val, by have := i.isLt; have := b.isLt; omega⟩
/-- Time step k of time tile j. -/
abbrev col (j : Fin 8) (k : Fin 256) : Fin 2048 := ⟨256 * j.val + k.val, by have := j.isLt; have := k.isLt; omega⟩

/-! ## The time axis as eight tiles of 256 steps -/

/-- A time step is a tile and a step inside it. -/
def tiles : Fin 8 × Fin 256 ≃ Fin 2048 where
  toFun p := col p.1 p.2
  invFun t := (⟨t.val / 256, by have := t.isLt; omega⟩, ⟨t.val % 256, Nat.mod_lt _ (by decide)⟩)
  left_inv p := by
    obtain ⟨j, k⟩ := p
    refine Prod.ext (Fin.ext ?_) (Fin.ext ?_)
    · show (256 * j.val + k.val) / 256 = j.val
      have := k.isLt; omega
    · show (256 * j.val + k.val) % 256 = k.val
      have := k.isLt; omega
  right_inv t := Fin.ext (by show 256 * (t.val / 256) + t.val % 256 = t.val; omega)

/-- A sum taken tile by tile is the sum over the time axis. -/
theorem sum_tiles {M : Type*} [AddCommMonoid M] (f : Fin 2048 → M) :
    ∑ j : Fin 8, ∑ k : Fin 256, f (col j k) = ∑ t : Fin 2048, f t := by
  rw [← Equiv.sum_comp tiles f, Fintype.sum_prod_type]
  rfl

/-- The sum of the first n + 1 of eight terms. -/
def upTo {M : Type*} [AddCommMonoid M] (f : Fin 8 → M) (n : ℕ) : M :=
  ∑ j ∈ Finset.univ.filter (fun j : Fin 8 => j.val ≤ n), f j

theorem upTo_zero {M : Type*} [AddCommMonoid M] (f : Fin 8 → M) : upTo f 0 = f 0 := by
  unfold upTo
  rw [show Finset.univ.filter (fun j : Fin 8 => j.val ≤ 0) = {0} from by decide, Finset.sum_singleton]

theorem upTo_succ {M : Type*} [AddCommMonoid M] (f : Fin 8 → M) (n : ℕ) (h : n + 1 < 8) :
    upTo f (n + 1) = upTo f n + f ⟨n + 1, h⟩ := by
  unfold upTo
  have e : Finset.univ.filter (fun j : Fin 8 => j.val ≤ n + 1)
      = insert (⟨n + 1, h⟩ : Fin 8) (Finset.univ.filter (fun j : Fin 8 => j.val ≤ n)) := by
    ext j
    simp only [Finset.mem_filter, Finset.mem_univ, true_and, Finset.mem_insert]
    constructor
    · intro hj
      rcases Nat.lt_or_ge j.val (n + 1) with h1 | h1
      · right; omega
      · left; exact Fin.ext (by show j.val = n + 1; omega)
    · rintro (rfl | hj)
      · exact le_refl _
      · omega
  rw [e, Finset.sum_insert (by simp), add_comm]

theorem upTo_seven {M : Type*} [AddCommMonoid M] (f : Fin 8 → M) : upTo f 7 = ∑ j : Fin 8, f j := by
  unfold upTo
  rw [Finset.filter_true_of_mem (fun j _ => by have := j.isLt; omega)]

/-! ## The two forms of the pooled value -/

section Forms
variable (X : SX.Idx → EReal) (W : SW.Idx → EReal) (B : SB.Idx → EReal)

/-- The score of time step t of row r. -/
def score (r : Fin 256) (t : Fin 2048) : EReal := ∑ u : Fin 512, X (ix3 r t u) * W (ix2 u (0 : Fin 1))
/-- Its activation. -/
def act (r : Fin 256) (t : Fin 2048) : EReal := Ideal.tanh (score X W r t + B (ix2 t (0 : Fin 1)))
/-- Its weight. -/
def wgt (r : Fin 256) (t : Fin 2048) : EReal := Ideal.exp (act X W B r t)
/-- The weights of one time tile, summed. -/
def tileDen (r : Fin 256) (j : Fin 8) : EReal := ∑ k : Fin 256, wgt X W B r (col j k)
/-- The weighted entries of one time tile, summed. -/
def tileNum (r : Fin 256) (u : Fin 512) (j : Fin 8) : EReal :=
  ∑ k : Fin 256, wgt X W B r (col j k) * X (ix3 r (col j k) u)

/-- The weighted mean over time at row r and column u, the two sums taken tile by tile. -/
def pooledAt (r : Fin 256) (u : Fin 512) : EReal :=
  Ideal.div (∑ j : Fin 8, tileNum X W B r u j) (∑ j : Fin 8, tileDen X W B r j)

/-- The sum over time of the entries times the softmax of the activations, shifted by M. -/
def softPooledAt (M : Fin 256 → EReal) (r : Fin 256) (u : Fin 512) : EReal :=
  0 + ∑ t : Fin 2048, X (ix3 r t u)
    * Ideal.div (Ideal.exp (act X W B r t - M r)) (0 + ∑ s : Fin 2048, Ideal.exp (act X W B r s - M r))

/-- The two, as arrays. -/
def pooled : SO.Idx → EReal := fun y => pooledAt X W B (y 0) (y 1)
def softPooled (M : Fin 256 → EReal) : SO.Idx → EReal := fun y => softPooledAt X W B M (y 0) (y 1)

end Forms

/-! ## Over the reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The shift cancels: a softmax-weighted sum is the weighted mean. -/
theorem real_law {ι : Type*} [Fintype ι] (a x : ι → ℝ) (M : ℝ) (hS : (∑ s, Real.exp (a s)) ≠ 0) :
    ∑ t, x t * (Real.exp (a t - M) * (1 / ∑ s, Real.exp (a s - M)))
      = (∑ t, Real.exp (a t) * x t) / ∑ t, Real.exp (a t) := by
  have hM : Real.exp M ≠ 0 := (Real.exp_pos M).ne'
  have hZ : ∑ s, Real.exp (a s - M) = (∑ s, Real.exp (a s)) / Real.exp M := by
    rw [Finset.sum_div]; exact Finset.sum_congr rfl fun s _ => Real.exp_sub _ _
  rw [hZ, Finset.sum_div Finset.univ (fun t => Real.exp (a t) * x t) (∑ t, Real.exp (a t))]
  refine Finset.sum_congr rfl fun t _ => ?_
  rw [Real.exp_sub]
  field_simp

section Real
variable (x : SX.Idx → ℝ) (w : SW.Idx → ℝ) (b : SB.Idx → ℝ)

def rscore (r : Fin 256) (t : Fin 2048) : ℝ := ∑ u : Fin 512, x (ix3 r t u) * w (ix2 u (0 : Fin 1))
def ract (r : Fin 256) (t : Fin 2048) : ℝ := Real.tanh (rscore x w r t + b (ix2 t (0 : Fin 1)))
def rpooled (r : Fin 256) (u : Fin 512) : ℝ :=
  (∑ t : Fin 2048, Real.exp (ract x w b r t) * x (ix3 r t u)) / ∑ t : Fin 2048, Real.exp (ract x w b r t)

theorem score_coe (r : Fin 256) (t : Fin 2048) :
    score (fun i => (x i : EReal)) (fun i => (w i : EReal)) r t = (rscore x w r t : EReal) := by
  unfold score rscore
  rw [coe_sum]
  simp only [EReal.coe_mul]

theorem act_coe (r : Fin 256) (t : Fin 2048) :
    act (fun i => (x i : EReal)) (fun i => (w i : EReal)) (fun i => (b i : EReal)) r t = (ract x w b r t : EReal) := by
  unfold act ract
  rw [score_coe, ← EReal.coe_add]
  rfl

theorem wgt_coe (r : Fin 256) (t : Fin 2048) :
    wgt (fun i => (x i : EReal)) (fun i => (w i : EReal)) (fun i => (b i : EReal)) r t = (Real.exp (ract x w b r t) : EReal) := by
  unfold wgt
  rw [act_coe]
  rfl

theorem den_pos (r : Fin 256) : 0 < ∑ t : Fin 2048, Real.exp (ract x w b r t) :=
  Finset.sum_pos (fun t _ => Real.exp_pos _) ⟨0, Finset.mem_univ _⟩

theorem pooledAt_coe (r : Fin 256) (u : Fin 512) :
    pooledAt (fun i => (x i : EReal)) (fun i => (w i : EReal)) (fun i => (b i : EReal)) r u = (rpooled x w b r u : EReal) := by
  unfold pooledAt tileNum tileDen rpooled
  rw [sum_tiles (fun t => wgt (fun i => (x i : EReal)) (fun i => (w i : EReal)) (fun i => (b i : EReal)) r t
        * (fun i => (x i : EReal)) (ix3 r t u)),
    sum_tiles (fun t => wgt (fun i => (x i : EReal)) (fun i => (w i : EReal)) (fun i => (b i : EReal)) r t)]
  simp only [wgt_coe, ← EReal.coe_mul, ← coe_sum]
  rw [Ideal.div_coe (den_pos x w b r).ne', ← EReal.coe_mul, mul_one_div]

theorem softPooledAt_coe (mr : Fin 256 → ℝ) (r : Fin 256) (u : Fin 512) :
    softPooledAt (fun i => (x i : EReal)) (fun i => (w i : EReal)) (fun i => (b i : EReal)) (fun r => (mr r : EReal)) r u
      = (rpooled x w b r u : EReal) := by
  unfold softPooledAt rpooled
  have hZ : (∑ s : Fin 2048, Real.exp (ract x w b r s - mr r)) ≠ 0 :=
    (Finset.sum_pos (fun t _ => Real.exp_pos _) ⟨0, Finset.mem_univ _⟩).ne'
  simp only [act_coe, ← EReal.coe_sub, Ideal.exp_coe, ← coe_sum, zero_add]
  simp only [Ideal.div_coe hZ, ← EReal.coe_mul, ← coe_sum]
  rw [real_law _ _ _ (den_pos x w b r).ne']

end Real

/-! ## The two forms agree on real arrays -/

theorem act_real (X : SX.Idx → EReal) (W : SW.Idx → EReal) (B : SB.Idx → EReal)
    (hX : ∀ i, ∃ q : ℝ, X i = q) (hW : ∀ i, ∃ q : ℝ, W i = q) (hB : ∀ i, ∃ q : ℝ, B i = q) (r : Fin 256) (t : Fin 2048) :
    ∃ q : ℝ, act X W B r t = q := by
  choose x hx using hX
  choose w hw using hW
  choose b hb using hB
  obtain rfl : X = fun i => (x i : EReal) := funext hx
  obtain rfl : W = fun i => (w i : EReal) := funext hw
  obtain rfl : B = fun i => (b i : EReal) := funext hb
  exact ⟨_, act_coe x w b r t⟩

/-- The largest of finitely many real numbers (at least one), taken from -∞, is a real number. -/
theorem rowMax_real (g : Fin 2048 → EReal) (hg : ∀ k, ∃ q : ℝ, g k = q) :
    ∃ q : ℝ, max (⊥ : EReal) ((Finset.univ : Finset (Fin 2048)).fold max ⊥ g) = q := by
  choose f hf using hg
  obtain rfl : g = fun k => (f k : EReal) := funext hf
  have key : ∀ s : Finset (Fin 2048), s.fold max (⊥ : EReal) (fun k => (f k : EReal)) = ⊥
      ∨ ∃ q : ℝ, s.fold max (⊥ : EReal) (fun k => (f k : EReal)) = q := by
    intro s
    induction s using Finset.induction_on with
    | empty => left; exact Finset.fold_empty
    | insert a s ha ih =>
      right
      rw [Finset.fold_insert ha]
      rcases ih with h | ⟨q, h⟩
      · exact ⟨f a, by rw [h, max_bot_right]⟩
      · exact ⟨max (f a) q, by rw [h]; exact (EReal.coe_strictMono.monotone.map_max).symm⟩
  rw [max_bot_left]
  rcases key Finset.univ with h | h
  · exfalso
    have hle : ((f 0 : ℝ) : EReal) ≤ (Finset.univ : Finset (Fin 2048)).fold max ⊥ (fun k => (f k : EReal)) :=
      (Finset.le_fold_max _).mpr (Or.inr ⟨0, Finset.mem_univ _, le_refl _⟩)
    rw [h] at hle
    exact absurd hle (not_le.mpr (EReal.bot_lt_coe _))
  · exact h

theorem softPooled_eq_pooled (X : SX.Idx → EReal) (W : SW.Idx → EReal) (B : SB.Idx → EReal) (M : Fin 256 → EReal)
    (hX : ∀ i, ∃ q : ℝ, X i = q) (hW : ∀ i, ∃ q : ℝ, W i = q) (hB : ∀ i, ∃ q : ℝ, B i = q)
    (hM : ∀ r, ∃ q : ℝ, M r = q) : softPooled X W B M = pooled X W B := by
  choose x hx using hX
  choose w hw using hW
  choose b hb using hB
  choose mr hmr using hM
  obtain rfl : X = fun i => (x i : EReal) := funext hx
  obtain rfl : W = fun i => (w i : EReal) := funext hw
  obtain rfl : B = fun i => (b i : EReal) := funext hb
  obtain rfl : M = fun r => (mr r : EReal) := funext hmr
  funext y
  exact (softPooledAt_coe x w b mr (y 0) (y 1)).trans (pooledAt_coe x w b (y 0) (y 1)).symm

end Cert.Pool

end
-- ==== Proof.KernelBlocks.lean ====
/-
  The blocks the kernel body loads at a grid point, read at coordinates.  The grid is 8 batch tiles by 8 time tiles,
  point t the pair (t / 8, t % 8): the block of x holds rows 32 (t / 8) + p and time steps 256 (t % 8) + k, the block
  of W is all of W, and the block of the bias — the column b[2048, 1] read as [1, 2048, 1] — holds b at the same time steps.
-/
import proofs.«107686_j22308060136260_2_alg».proof.Proof.Gen.KernelIdeal.Frame
import proofs.«107686_j22308060136260_2_alg».proof.Proof.Pool
import Idealize.ShloMosaic.Lib.Pipeline.Value
import Idealize.ShloMosaic.Lib.StableHlo.Run
import Idealize.ShloMosaic.Lib.ValueIdx

noncomputable section
namespace Cert.KernelIdeal.Blocks
open Cert.KernelIdeal Cert.KernelIdeal.Gen Idealize.ShloMosaic Idealize.ShloMosaic.TcCoe Idealize.SL.Sem Idealize.ShloMosaic.ValueIdx
open Cert.Pool (row col)

variable {F : FTy → Type} [FloatOps F]
variable (m : (ℓ : Loc nD τ sig) → Buf (Elt F) ℓ)

/-- The batch tile and the time tile of a grid point. -/
abbrev ti (t : Fin cfg0.N) : Fin 8 := ⟨t.val / 8, by have := lt_of_lt_of_eq t.isLt (show cfg0.N = 64 from N_0); omega⟩
abbrev tj (t : Fin cfg0.N) : Fin 8 := ⟨t.val % 8, Nat.mod_lt _ (by decide)⟩

/-- The block index of each window at a grid point, decided over the 64 points. -/
theorem idx_x : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx_w : ∀ t : Fin cfg0.N, win0_1.index t 0 = 0 ∧ win0_1.index t 1 = 0 :=
  (by decide +kernel : ∀ t : Fin grid0.N, win0_1.index t 0 = 0 ∧ win0_1.index t 1 = 0)
theorem idx_b : ∀ t : Fin cfg0.N, win0_2.index t 0 = 0 ∧ win0_2.index t 1 = t.val % 8 ∧ win0_2.index t 2 = 0 :=
  (by decide +kernel : ∀ t : Fin grid0.N, win0_2.index t 0 = 0 ∧ win0_2.index t 1 = t.val % 8 ∧ win0_2.index t 2 = 0)
theorem idx_o : ∀ t : Fin cfg0.N, win0_3.index t 0 = t.val / 8 ∧ win0_3.index t 1 = 0 :=
  (by decide +kernel : ∀ t : Fin grid0.N, win0_3.index t 0 = t.val / 8 ∧ win0_3.index t 1 = 0)

/-- The block of x at a point. -/
theorem xblock_at (c : Dev nD) (t : Fin cfg0.N) (p : Fin 32) (k : Fin 256) (u : Fin 512) :
    (iblk m c 0 t : Vec F S32x256x512 .f32) (ix3 p k u)
      = m ((c : Thread nD τ).loc main_arg0) (ix3 (row (ti t) p) (col (tj t) k) u) := by
  unfold iblk
  rw [View.read_apply]
  show V m c main_arg0 _ = _
  rw [V_main_arg0]
  congr 1
  funext a
  apply Fin.ext
  match a with
  | ⟨0, _⟩ => show win0_0.index t 0 * 32 + 1 * p.val = 32 * (t.val / 8) + p.val; rw [(idx_x t).1]; omega
  | ⟨1, _⟩ => show win0_0.index t 1 * 256 + 1 * k.val = 256 * (t.val % 8) + k.val; rw [(idx_x t).2.1]; omega
  | ⟨2, _⟩ => show win0_0.index t 2 * 512 + 1 * u.val = u.val; rw [(idx_x t).2.2]; omega

/-- The block of W is W. -/
theorem wblock_at (c : Dev nD) (t : Fin cfg0.N) (u : Fin 512) (z : Fin 1) :
    (iblk m c 1 t : Vec F S512x1 .f32) (ix2 u z) = m ((c : Thread nD τ).loc main_arg1) (ix2 u z) := by
  unfold iblk
  rw [View.read_apply]
  show V m c main_arg1 _ = _
  rw [V_main_arg1]
  congr 1
  funext a
  apply Fin.ext
  match a with
  | ⟨0, _⟩ => show win0_1.index t 0 * 512 + 1 * u.val = u.val; rw [(idx_w t).1]; omega
  | ⟨1, _⟩ => show win0_1.index t 1 * 1 + 1 * z.val = z.val; rw [(idx_w t).2]; omega

/-- The bias as the region finds it: the column b[2048, 1] read as [1, 2048, 1]. -/
theorem bias_entry (c : Dev nD) :
    (V m c main_v0 : Vec F S1x2048x1 .f32) = shapeCast S1x2048x1 (m ((c : Thread nD τ).loc main_arg2)) shapeCasts_S2048x1_S1x2048x1 := by
  dsimp only [Gen.V, Gen.hostOps0]
  after_results
  rfl

/-- The block of the bias at a point. -/
theorem bblock_at (c : Dev nD) (t : Fin cfg0.N) (k : Fin 256) (z z' : Fin 1) :
    (iblk m c 2 t : Vec F S1x256x1 .f32) (ix3 z k z') = m ((c : Thread nD τ).loc main_arg2) (ix2 (col (tj t) k) (0 : Fin 1)) := by
  unfold iblk
  rw [View.read_apply]
  show (V m c main_v0 : Vec F S1x2048x1 .f32) _ = _
  rw [bias_entry]
  refine shapeCast_apply _ _ _ _ ?_
  have hz : z.val = 0 := by omega
  have hz' : z'.val = 0 := by omega
  refine (Shape.rowMajor_val_two (d := ![2048, 1]) (ix2 (col (tj t) k) (0 : Fin 1))).trans ?_
  rw [Shape.rowMajor_val_three]
  show (256 * (t.val % 8) + k.val) * 1 + 0 = ((win0_2.index t 0 * 1 + 1 * z.val) * 2048 + (win0_2.index t 1 * 256 + 1 * k.val)) * 1 + (win0_2.index t 2 * 1 + 1 * z'.val)
  rw [(idx_b t).1, (idx_b t).2.1, (idx_b t).2.2, hz, hz']
  omega

end Cert.KernelIdeal.Blocks
end
-- ==== Proof.KernelPieces.lean ====
/-
  What the kernel body leaves in its two carried buffers (the numerator, [32, 512], and the denominator, [32, 1]) and,
  at a tile's last time step, in the output block, as values of what it loaded: at any float values.  Each is one
  whole-buffer store, so the buffer holds that store's value; at a first time step the zero stored before is what the
  update reads back.
-/
import proofs.«107686_j22308060136260_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a tile's first time step the numerator buffer is zeroed, read back and updated. -/
theorem numer_first (c : Dev nD) (i : grid0.Coords) (arg2 : Memref sig .tc .vmem S32x256x512 .f32) (harg2 : arg2.IsWhole) (arg3 : Memref sig .tc .vmem S512x1 .f32) (harg3 : arg3.IsWhole) (arg4 : Memref sig .tc .vmem S1x256x1 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S32x256x512 .f32) (x1 : Vec F S512x1 .f32) (x2 : Vec F S1x256x1 .f32) :
    sout0_A_0 c i arg2 harg2 arg3 harg3 arg4 harg4 arg5 harg5 arg6 harg6 arg7 harg7 hc0 hc1 x0 x1 x2 = k0_pay5 x0 x1 x2 k0_pay1 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S32x512) hz2, View.readCov_unit_zero (S := S32x512) _ hz2]
  simp only [View.readAt_eq_ld, harg2.read_unread, harg3.read_unread, harg4.read_unread, harg6.read_unread, harg7.read_unread,
    View.ld_unit_zero (S := S32x256x512) hz3, View.ld_unit_zero (S := S512x1) hz2, View.ld_unit_zero (S := S1x256x1) hz3,
    View.ld_unit_zero (S := S32x512) hz2, View.ld_unit_zero (S := S32x1) hz2]

/-- At a tile's first time step the denominator buffer is zeroed, read back and updated. -/
theorem denom_first (c : Dev nD) (i : grid0.Coords) (arg2 : Memref sig .tc .vmem S32x256x512 .f32) (harg2 : arg2.IsWhole) (arg3 : Memref sig .tc .vmem S512x1 .f32) (harg3 : arg3.IsWhole) (arg4 : Memref sig .tc .vmem S1x256x1 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x1 .f32) (harg7 : arg7.IsWhole) (hc0 : cond0_0 i) (hc1 : ¬cond0_1 i)
    (x0 : Vec F S32x256x512 .f32) (x1 : Vec F S512x1 .f32) (x2 : Vec F S1x256x1 .f32) :
    sout0_A_1 c i arg2 harg2 arg3 harg3 arg4 harg4 arg5 harg5 arg6 harg6 arg7 harg7 hc0 hc1 x0 x1 x2 = k0_pay4 x0 x1 x2 k0_pay2 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S32x1) hz2, View.readCov_unit_zero (S := S32x1) _ hz2]
  simp only [View.readAt_eq_ld, harg2.read_unread, harg3.read_unread, harg4.read_unread, harg6.read_unread, harg7.read_unread,
    View.ld_unit_zero (S := S32x256x512) hz3, View.ld_unit_zero (S := S512x1) hz2, View.ld_unit_zero (S := S1x256x1) hz3,
    View.ld_unit_zero (S := S32x512) hz2, View.ld_unit_zero (S := S32x1) hz2]

/-- At a middle time step the numerator buffer is updated from what the step before left. -/
theorem numer_mid (c : Dev nD) (i : grid0.Coords) (arg2 : Memref sig .tc .vmem S32x256x512 .f32) (harg2 : arg2.IsWhole) (arg3 : Memref sig .tc .vmem S512x1 .f32) (harg3 : arg3.IsWhole) (arg4 : Memref sig .tc .vmem S1x256x1 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : ¬cond0_1 i)
    (x0 : Vec F S32x256x512 .f32) (x1 : Vec F S512x1 .f32) (x2 : Vec F S1x256x1 .f32) (xs0 : Vec F S32x512 .f32) (xs1 : Vec F S32x1 .f32) :
    sout0_B_0 c i arg2 harg2 arg3 harg3 arg4 harg4 arg5 harg5 arg6 harg6 arg7 harg7 hc0 hc1 x0 x1 x2 xs0 xs1 = k0_pay5 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  rw [View.canon_unit_zero hz2]
  simp only [View.readAt_eq_ld, harg2.read_unread, harg3.read_unread, harg4.read_unread, harg6.read_unread, harg7.read_unread,
    View.ld_unit_zero (S := S32x256x512) hz3, View.ld_unit_zero (S := S512x1) hz2, View.ld_unit_zero (S := S1x256x1) hz3,
    View.ld_unit_zero (S := S32x512) hz2, View.ld_unit_zero (S := S32x1) hz2]

/-- At a middle time step the denominator buffer is updated from what the step before left. -/
theorem denom_mid (c : Dev nD) (i : grid0.Coords) (arg2 : Memref sig .tc .vmem S32x256x512 .f32) (harg2 : arg2.IsWhole) (arg3 : Memref sig .tc .vmem S512x1 .f32) (harg3 : arg3.IsWhole) (arg4 : Memref sig .tc .vmem S1x256x1 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : ¬cond0_1 i)
    (x0 : Vec F S32x256x512 .f32) (x1 : Vec F S512x1 .f32) (x2 : Vec F S1x256x1 .f32) (xs0 : Vec F S32x512 .f32) (xs1 : Vec F S32x1 .f32) :
    sout0_B_1 c i arg2 harg2 arg3 harg3 arg4 harg4 arg5 harg5 arg6 harg6 arg7 harg7 hc0 hc1 x0 x1 x2 xs0 xs1 = k0_pay4 x0 x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  rw [View.canon_unit_zero hz2]
  simp only [View.readAt_eq_ld, harg2.read_unread, harg3.read_unread, harg4.read_unread, harg6.read_unread, harg7.read_unread,
    View.ld_unit_zero (S := S32x256x512) hz3, View.ld_unit_zero (S := S512x1) hz2, View.ld_unit_zero (S := S1x256x1) hz3,
    View.ld_unit_zero (S := S32x512) hz2, View.ld_unit_zero (S := S32x1) hz2]

/-- At a tile's last time step the numerator buffer is updated likewise. -/
theorem numer_last (c : Dev nD) (i : grid0.Coords) (arg2 : Memref sig .tc .vmem S32x256x512 .f32) (harg2 : arg2.IsWhole) (arg3 : Memref sig .tc .vmem S512x1 .f32) (harg3 : arg3.IsWhole) (arg4 : Memref sig .tc .vmem S1x256x1 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S32x256x512 .f32) (x1 : Vec F S512x1 .f32) (x2 : Vec F S1x256x1 .f32) (xs0 : Vec F S32x512 .f32) (xs1 : Vec F S32x1 .f32) :
    sout0_C_0 c i arg2 harg2 arg3 harg3 arg4 harg4 arg5 harg5 arg6 harg6 arg7 harg7 hc0 hc1 x0 x1 x2 xs0 xs1 = k0_pay5 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread,
    View.ld_unit_zero (S := S32x256x512) hz3, View.ld_unit_zero (S := S512x1) hz2, View.ld_unit_zero (S := S1x256x1) hz3,
    View.ld_unit_zero (S := S32x512) hz2, View.ld_unit_zero (S := S32x1) hz2]

/-- At a tile's last time step the denominator buffer is updated likewise. -/
theorem denom_last (c : Dev nD) (i : grid0.Coords) (arg2 : Memref sig .tc .vmem S32x256x512 .f32) (harg2 : arg2.IsWhole) (arg3 : Memref sig .tc .vmem S512x1 .f32) (harg3 : arg3.IsWhole) (arg4 : Memref sig .tc .vmem S1x256x1 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S32x256x512 .f32) (x1 : Vec F S512x1 .f32) (x2 : Vec F S1x256x1 .f32) (xs0 : Vec F S32x512 .f32) (xs1 : Vec F S32x1 .f32) :
    sout0_C_1 c i arg2 harg2 arg3 harg3 arg4 harg4 arg5 harg5 arg6 harg6 arg7 harg7 hc0 hc1 x0 x1 x2 xs0 xs1 = k0_pay4 x0 x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread,
    View.ld_unit_zero (S := S32x256x512) hz3, View.ld_unit_zero (S := S512x1) hz2, View.ld_unit_zero (S := S1x256x1) hz3,
    View.ld_unit_zero (S := S32x512) hz2, View.ld_unit_zero (S := S32x1) hz2]

/-- At a tile's last time step the output block is the quotient of the two updated buffers. -/
theorem out_last (c : Dev nD) (i : grid0.Coords) (arg2 : Memref sig .tc .vmem S32x256x512 .f32) (harg2 : arg2.IsWhole) (arg3 : Memref sig .tc .vmem S512x1 .f32) (harg3 : arg3.IsWhole) (arg4 : Memref sig .tc .vmem S1x256x1 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S32x1 .f32) (harg7 : arg7.IsWhole) (hc0 : ¬cond0_0 i) (hc1 : cond0_1 i)
    (x0 : Vec F S32x256x512 .f32) (x1 : Vec F S512x1 .f32) (x2 : Vec F S1x256x1 .f32) (xs0 : Vec F S32x512 .f32) (xs1 : Vec F S32x1 .f32) :
    out0_C_3 c i arg2 harg2 arg3 harg3 arg4 harg4 arg5 harg5 arg6 harg6 arg7 harg7 hc0 hc1 x0 x1 x2 xs0 xs1 = k0_pay6 (k0_pay5 x0 x1 x2 xs0) (k0_pay4 x0 x1 x2 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2, View.readCov_unit_zero (S := S32x512) _ hz2, View.readCov_unit_zero (S := S32x1) _ hz2]
  simp only [View.readAt_eq_ld, harg2.read_unread, harg3.read_unread, harg4.read_unread, harg6.read_unread, harg7.read_unread,
    View.ld_unit_zero (S := S32x256x512) hz3, View.ld_unit_zero (S := S512x1) hz2, View.ld_unit_zero (S := S1x256x1) hz3,
    View.ld_unit_zero (S := S32x512) hz2, View.ld_unit_zero (S := S32x1) hz2]

end Cert.KernelIdeal.Pieces

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibBatchMatmulSum.lean ====
/-
  A batched matrix product  [m, n, K] x [m, K, w] -> [m, n, w]  at the ideal values: for each g < m the g-th left
  matrix times the g-th right matrix.  Read at entry (g, p, q) it is the sum over k < K of left(g, p, k) * right(g, k, q),
  for any sizes and whichever record of dimension numbers spells it.  The record enters only through eight facts about
  its index maps: one contracted axis of extent K; the batch axis is axis 0 of both operands and of the result; the left
  operand is contracted on its axis 2 and keeps its axis 1, the right is contracted on its axis 1 and keeps its axis 2.
-/
import Idealize.ShloMosaic.PureOps.Ideal.Laws
import Idealize.ShloMosaic.Lib.Pipeline.Value
import Idealize.ShloMosaic.Lib.ValueIdx

noncomputable section

namespace Cert.LibBatchMatmulSum

open Idealize.ShloMosaic Idealize.ShloMosaic.ValueIdx

/-- The index facts of a product batched over axis 0, with contraction length `K`. -/
structure Batched {m n K w : ℕ} (d : DotDims ⟨3, ![m, n, K]⟩ ⟨3, ![m, K, w]⟩ ⟨3, ![m, n, w]⟩) : Prop where
  rank : d.contr.rank = 1
  size : d.contr.size ⟨0, by rw [rank]; exact Nat.one_pos⟩ = K
  l0 : ∀ (i : (⟨3, ![m, n, w]⟩ : Shape).Idx) (q : d.contr.Idx), (d.lhsIdx i q 0).val = (i 0).val
  l1 : ∀ (i : (⟨3, ![m, n, w]⟩ : Shape).Idx) (q : d.contr.Idx), (d.lhsIdx i q 1).val = (i 1).val
  l2 : ∀ (i : (⟨3, ![m, n, w]⟩ : Shape).Idx) (q : d.contr.Idx), (d.lhsIdx i q 2).val = (q ⟨0, by rw [rank]; exact Nat.one_pos⟩).val
  r0 : ∀ (i : (⟨3, ![m, n, w]⟩ : Shape).Idx) (q : d.contr.Idx), (d.rhsIdx i q 0).val = (i 0).val
  r1 : ∀ (i : (⟨3, ![m, n, w]⟩ : Shape).Idx) (q : d.contr.Idx), (d.rhsIdx i q 1).val = (q ⟨0, by rw [rank]; exact Nat.one_pos⟩).val
  r2 : ∀ (i : (⟨3, ![m, n, w]⟩ : Shape).Idx) (q : d.contr.Idx), (d.rhsIdx i q 2).val = (i 2).val

/-- The contraction sum at entry (g, p, q), re-indexed by k < K. -/
theorem sum_eq {m n K w : ℕ} {d : DotDims ⟨3, ![m, n, K]⟩ ⟨3, ![m, K, w]⟩ ⟨3, ![m, n, w]⟩} (hd : Batched d)
    (l : (⟨3, ![m, n, K]⟩ : Shape).Idx → EReal) (r : (⟨3, ![m, K, w]⟩ : Shape).Idx → EReal) (g : Fin m) (p : Fin n) (q : Fin w) :
    (∑ k : d.contr.Idx, l (d.lhsIdx (ix3 g p q) k) * r (d.rhsIdx (ix3 g p q) k)) = ∑ k : Fin K, l (ix3 g p k) * r (ix3 g k q) := by
  rw [← Equiv.sum_comp (contrEquiv1 d K hd.rank hd.size).symm]
  refine Finset.sum_congr rfl fun k _ => ?_
  have hk := contrEquiv1_symm_val d K hd.rank hd.size k
  have el : d.lhsIdx (ix3 g p q) ((contrEquiv1 d K hd.rank hd.size).symm k) = ix3 g p k := funext fun a => Fin.ext (by
    match a with
    | ⟨0, _⟩ => exact hd.l0 _ _
    | ⟨1, _⟩ => exact hd.l1 _ _
    | ⟨2, _⟩ => exact (hd.l2 _ _).trans hk)
  have er : d.rhsIdx (ix3 g p q) ((contrEquiv1 d K hd.rank hd.size).symm k) = ix3 g k q := funext fun a => Fin.ext (by
    match a with
    | ⟨0, _⟩ => exact hd.r0 _ _
    | ⟨1, _⟩ => exact (hd.r1 _ _).trans hk
    | ⟨2, _⟩ => exact hd.r2 _ _)
  rw [el, er]

/-- A batched matrix-unit product into the zero accumulator, at entry (g, p, q). -/
theorem matmul_zero_at {m n K w : ℕ} {d : DotDims ⟨3, ![m, n, K]⟩ ⟨3, ![m, K, w]⟩ ⟨3, ![m, n, w]⟩} (hd : Batched d) {φ₁ φ₂ : FTy}
    (prec : Option ContractPrecision) (l : FVec Ideal ⟨3, ![m, n, K]⟩ φ₁) (r : FVec Ideal ⟨3, ![m, K, w]⟩ φ₂)
    (g : Fin m) (p : Fin n) (q : Fin w) :
    FloatOps.matmul d prec l r (constant ⟨3, ![m, n, w]⟩ .f32 0x00000000#32) (ix3 g p q) = ∑ k : Fin K, l (ix3 g p k) * r (ix3 g k q) :=
  (Ideal.matmul_constant_zero_apply d prec l r (ix3 g p q)).trans (sum_eq hd l r g p q)

end Cert.LibBatchMatmulSum

end
-- ==== Proof.LibMergeAxes.lean ====
/-
  Layout facts around a product whose leading two axes are merged into one, each stated at an index given by
  coordinates, over any element type and any sizes:

  * an `[a, b, c]` array read as `[n, c]` with n = a * b (rows merged), and an `[n, 1]` column read as `[a, b, 1]`
    (rows split again): row r = p * b + q of the merged array is row (p, q) of the other;
  * an `[a, 1, c]` array read as `[a, c]` (a unit middle axis dropped);
  * a `[1, b, 1]` array repeated along a leading axis of length a;
  * at the extended reals, a sum along the middle axis of an `[a, b, c]` array as a sum over its coordinate.
-/
import Idealize.ShloMosaic.Lib.ValueIdx
import Idealize.ShloMosaic.Lib.Pipeline.Value
import Idealize.ShloMosaic.PureOps.Ideal.Laws

noncomputable section

namespace Cert.LibMergeAxes

open Idealize.ShloMosaic Idealize.ShloMosaic.ValueIdx

section Layout
variable {α : Type}

/-- An `[a, b, c]` array cast to `[n, c]` reads, at `(r, u)` with `r = p * b + q`, the operand at `(p, q, u)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (u : Fin c) (r : Fin n)
    (hr : r.val = p.val * b + q.val) : shapeCast ⟨2, ![n, c]⟩ x h (ix2 r u) = x (ix3 p q u) :=
  shapeCast_apply x h _ _ (by
    rw [Shape.rowMajor_val_three, Shape.rowMajor_val_two]
    show (p.val * b + q.val) * c + u.val = r.val * c + u.val
    rw [hr])

/-- An `[n, 1]` column cast to `[a, b, 1]` reads, at `(p, q, z)`, the column's entry in row `r = p * b + q`. -/
theorem shapeCast_n1_ab1_apply {a b n : ℕ} (x : (⟨2, ![n, 1]⟩ : Shape).Idx → α)
    (h : (⟨2, ![n, 1]⟩ : Shape).ShapeCasts ⟨3, ![a, b, 1]⟩) (p : Fin a) (q : Fin b) (z z' : Fin 1) (r : Fin n)
    (hr : r.val = p.val * b + q.val) : shapeCast ⟨3, ![a, b, 1]⟩ x h (ix3 p q z) = x (ix2 r z') :=
  shapeCast_apply x h _ _ (by
    have hz : z.val = 0 := by omega
    have hz' : z'.val = 0 := by omega
    rw [Shape.rowMajor_val_three, Shape.rowMajor_val_two]
    show r.val * 1 + z'.val = (p.val * b + q.val) * 1 + z.val
    rw [hr, hz, hz'])

/-- An `[a, 1, c]` array cast to `[a, c]` reads, at `(p, u)`, the operand at `(p, 0, u)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (u : Fin c) :
    shapeCast ⟨2, ![a, c]⟩ x h (ix2 p u) = x (ix3 p (0 : Fin 1) u) :=
  shapeCast_apply x h _ _ (by
    rw [Shape.rowMajor_val_three, Shape.rowMajor_val_two]
    show (p.val * 1 + 0) * c + u.val = p.val * c + u.val
    rw [Nat.mul_one, Nat.add_zero])

/-- A `[1, b, 1]` array broadcast to `[a, b, 1]` reads, at `(p, q, z)`, the operand at `(0, q, 0)`. -/
theorem broadcastTo_1b1_ab1_apply {a b : ℕ} (x : (⟨3, ![1, b, 1]⟩ : Shape).Idx → α)
    (h : (⟨3, ![1, b, 1]⟩ : Shape).Broadcasts ⟨3, ![a, b, 1]⟩) (p : Fin a) (q : Fin b) (z : Fin 1) :
    broadcastTo ⟨3, ![a, b, 1]⟩ x h (ix3 p q z) = x (ix3 (0 : Fin 1) q (0 : Fin 1)) := by
  refine broadcastTo_apply x h (ix3 p q z) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

end Layout

section MiddleSum

/-- The index a reduction of the middle axis inserts: over `(p, z)` with coordinate `k` it is `(p, k, z)`. -/
theorem lift3_axis1 {n0 n1 n2 : ℕ} (h : (⟨3, ![n0, n1, n2]⟩ : Shape).Reduces [1] ⟨2, ![n0, n2]⟩)
    (p : Fin n0) (z : Fin n2) (k : Fin n1) : h.lift (ix2 p z) k = ix3 p k z :=
  funext fun a => Fin.ext (by
    match a with
    | ⟨0, _⟩ => rfl
    | ⟨1, _⟩ => rfl
    | ⟨2, _⟩ => rfl)

/-- A sum along the middle axis, read at `(p, z)`, is the sum over the middle coordinate. -/
theorem middleSum3_apply {n0 n1 n2 : ℕ} (x : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = FKind.add.neutral .f32 hφ) (p : Fin n0) (z : Fin n2) :
    multiReduction (F := Ideal) .add [1] ⟨2, ![n0, n2]⟩ x 0x00000000#32 h hφ hacc (ix2 p z) = ∑ k : Fin n1, x (ix3 p k z) :=
  (Ideal.multiReduction_add_single x 0x00000000#32 h hφ hacc (ix2 p z)).trans
    (Finset.sum_congr rfl fun k _ => congrArg x (lift3_axis1 h p z k))

end MiddleSum

end Cert.LibMergeAxes

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPay.lean ====
/-
  The kernel body's arithmetic read at an index, at the extended reals.  On a block x0[32, 256, 512] of the entries,
  the column x1[512, 1] and a block x2[1, 256, 1] of the bias:

  * the weight of row p and step k of the block is  exp (tanh (sum_u x0(p, k, u) * x1(u, 0) + x2(0, k, 0)))  — the
    rows of the block are merged to take all 8192 scores in one matrix product, and split again;
  * the denominator's update adds the block's weights, summed over its 256 steps, to what the buffer held;
  * the numerator's update adds  sum_k weight(p, k) * x0(p, k, u)  — one 1 x 256 by 256 x 512 product per row p;
  * the result is their quotient, the denominator repeated along the 512 columns.
-/
import proofs.«107686_j22308060136260_2_alg».proof.Proof.Gen.KernelIdeal.Skeleton
import proofs.«107686_j22308060136260_2_alg».proof.Proof.LibMatmulSum
import proofs.«107686_j22308060136260_2_alg».proof.Proof.LibBatchMatmulSum
import proofs.«107686_j22308060136260_2_alg».proof.Proof.LibMergeAxes
import proofs.«107686_j22308060136260_2_alg».proof.Proof.LibKeepdims
import Idealize.ShloMosaic.Lib.ValueLayout

noncomputable section
namespace Cert.KernelIdeal.Pay
open Cert.KernelIdeal Cert.KernelIdeal.Gen Idealize.ShloMosaic Idealize.ShloMosaic.ValueIdx

/-- The score product is a plain [8192, 512] x [512, 1] product. -/
theorem plain_score : Cert.LibMatmulSum.Plain dot_S8192x512_S512x1_S8192x1_1_0_0_1_n_n where
  rank := rfl
  size := rfl
  l0 := fun i q => by
    unfold DotDims.lhsIdx
    rw [dif_neg (show ¬(0 : Fin S8192x512.rank) ∈ dot_S8192x512_S512x1_S8192x1_1_0_0_1_n_n.lhsBatch by decide),
      dif_pos (show (0 : Fin S8192x512.rank) ∈ dot_S8192x512_S512x1_S8192x1_1_0_0_1_n_n.lhsNonContracting by decide)]
    rfl
  l1 := fun i q => dot_S8192x512_S512x1_S8192x1_1_0_0_1_n_n.lhsIdx_val_of_single rfl i q
  r0 := fun i q => dot_S8192x512_S512x1_S8192x1_1_0_0_1_n_n.rhsIdx_val_of_single rfl i q
  r1 := fun i q => by
    unfold DotDims.rhsIdx
    rw [dif_neg (show ¬(1 : Fin S512x1.rank) ∈ dot_S8192x512_S512x1_S8192x1_1_0_0_1_n_n.rhsBatch by decide),
      dif_pos (show (1 : Fin S512x1.rank) ∈ dot_S8192x512_S512x1_S8192x1_1_0_0_1_n_n.rhsNonContracting by decide)]
    rfl

/-- The weighted-sum product is batched over the 32 rows: [32, 1, 256] x [32, 256, 512]. -/
theorem batched_numer : Cert.LibBatchMatmulSum.Batched dot_S32x1x256_S32x256x512_S32x1x512_2_1_1_2_0_0 where
  rank := rfl
  size := rfl
  l0 := fun i q => by
    unfold DotDims.lhsIdx
    rw [dif_pos (show (0 : Fin S32x1x256.rank) ∈ dot_S32x1x256_S32x256x512_S32x1x512_2_1_1_2_0_0.lhsBatch by decide)]
    rfl
  l1 := fun i q => by
    unfold DotDims.lhsIdx
    rw [dif_neg (show ¬(1 : Fin S32x1x256.rank) ∈ dot_S32x1x256_S32x256x512_S32x1x512_2_1_1_2_0_0.lhsBatch by decide),
      dif_pos (show (1 : Fin S32x1x256.rank) ∈ dot_S32x1x256_S32x256x512_S32x1x512_2_1_1_2_0_0.lhsNonContracting by decide)]
    rfl
  l2 := fun i q => dot_S32x1x256_S32x256x512_S32x1x512_2_1_1_2_0_0.lhsIdx_val_of_single rfl i q
  r0 := fun i q => by
    unfold DotDims.rhsIdx
    rw [dif_pos (show (0 : Fin S32x256x512.rank) ∈ dot_S32x1x256_S32x256x512_S32x1x512_2_1_1_2_0_0.rhsBatch by decide)]
    rfl
  r1 := fun i q => dot_S32x1x256_S32x256x512_S32x1x512_2_1_1_2_0_0.rhsIdx_val_of_single rfl i q
  r2 := fun i q => by
    unfold DotDims.rhsIdx
    rw [dif_neg (show ¬(2 : Fin S32x256x512.rank) ∈ dot_S32x1x256_S32x256x512_S32x1x512_2_1_1_2_0_0.rhsBatch by decide),
      dif_pos (show (2 : Fin S32x256x512.rank) ∈ dot_S32x1x256_S32x256x512_S32x1x512_2_1_1_2_0_0.rhsNonContracting by decide)]
    rfl

/-- Row p * 256 + k of the merged rows. -/
abbrev mrow (p : Fin 32) (k : Fin 256) : Fin 8192 := ⟨p.val * 256 + k.val, by have := p.isLt; have := k.isLt; omega⟩

/-- The weight of row p and step k of a block. -/
theorem pay3_at (x0 : Vec Ideal S32x256x512 .f32) (x1 : Vec Ideal S512x1 .f32) (x2 : Vec Ideal S1x256x1 .f32)
    (p : Fin 32) (k : Fin 256) (z : Fin 1) :
    k0_pay3 x0 x1 x2 (ix3 p k z)
      = Ideal.exp (Ideal.tanh ((∑ u : Fin 512, x0 (ix3 p k u) * x1 (ix2 u (0 : Fin 1))) + x2 (ix3 (0 : Fin 1) k (0 : Fin 1)))) := by
  unfold k0_pay3
  have e4 : ∀ u : Fin 512, shapeCast S8192x512 x0 shapeCasts_S32x256x512_S8192x512 (ix2 (mrow p k) u) = x0 (ix3 p k u) :=
    fun u => Cert.LibMergeAxes.shapeCast_abc_nc_apply x0 _ p k u (mrow p k) rfl
  have e6 : matmul (F := Ideal) (φ₁ := .f32) (φ₂ := .f32) dot_S8192x512_S512x1_S8192x1_1_0_0_1_n_n none
        (shapeCast S8192x512 x0 shapeCasts_S32x256x512_S8192x512) x1
        (constant S8192x1 .f32 0x00000000#32) (ix2 (mrow p k) (0 : Fin 1))
      = ∑ u : Fin 512, x0 (ix3 p k u) * x1 (ix2 u (0 : Fin 1)) :=
    (Cert.LibMatmulSum.matmul_zero_at plain_score (φ₁ := .f32) (φ₂ := .f32) none
        (shapeCast S8192x512 x0 shapeCasts_S32x256x512_S8192x512) x1 (mrow p k) 0).trans
      (Finset.sum_congr rfl fun u _ => by rw [e4 u])
  have e7 := Cert.LibMergeAxes.shapeCast_n1_ab1_apply
    (matmul (F := Ideal) (φ₁ := .f32) (φ₂ := .f32) dot_S8192x512_S512x1_S8192x1_1_0_0_1_n_n none
      (shapeCast S8192x512 x0 shapeCasts_S32x256x512_S8192x512) x1
      (constant S8192x1 .f32 0x00000000#32)) shapeCasts_S8192x1_S32x256x1 p k z (0 : Fin 1) (mrow p k) rfl
  have e10 : broadcastTo S32x256x1 (shapeCast S1x256x1 x2 shapeCasts_S1x256x1_S1x256x1) broadcasts_S1x256x1_S32x256x1 (ix3 p k z)
      = x2 (ix3 (0 : Fin 1) k (0 : Fin 1)) :=
    (Cert.LibMergeAxes.broadcastTo_1b1_ab1_apply _ _ p k z).trans (by rw [shapeCast_self])
  show Ideal.exp (Ideal.tanh (_ + _)) = _
  rw [e7, e6, e10]

/-- The denominator's update: what the buffer held plus the tile's weights summed. -/
theorem pay4_at (x0 : Vec Ideal S32x256x512 .f32) (x1 : Vec Ideal S512x1 .f32) (x2 : Vec Ideal S1x256x1 .f32)
    (acc : Vec Ideal S32x1 .f32) (p : Fin 32) (z : Fin 1) :
    k0_pay4 x0 x1 x2 acc (ix2 p z) = acc (ix2 p z) + ∑ k : Fin 256, k0_pay3 x0 x1 x2 (ix3 p k z) := by
  unfold k0_pay4
  rw [shapeCast_self]
  show _ + _ = _
  exact congrArg (acc (ix2 p z) + ·) (Cert.LibMergeAxes.middleSum3_apply (k0_pay3 x0 x1 x2) _ _ _ p z)

/-- The numerator's update: what the buffer held plus the tile's weighted entries summed. -/
theorem pay5_at (x0 : Vec Ideal S32x256x512 .f32) (x1 : Vec Ideal S512x1 .f32) (x2 : Vec Ideal S1x256x1 .f32)
    (acc : Vec Ideal S32x512 .f32) (p : Fin 32) (u : Fin 512) :
    k0_pay5 x0 x1 x2 acc (ix2 p u)
      = acc (ix2 p u) + ∑ k : Fin 256, k0_pay3 x0 x1 x2 (ix3 p k (0 : Fin 1)) * x0 (ix3 p k u) := by
  unfold k0_pay5
  rw [shapeCast_self]
  show _ + _ = _
  refine congrArg (acc (ix2 p u) + ·) ?_
  refine (Cert.LibMergeAxes.shapeCast_a1c_ac_apply _ _ p u).trans ?_
  refine (Cert.LibBatchMatmulSum.matmul_zero_at batched_numer (φ₁ := .f32) (φ₂ := .f32) none _ x0 p (0 : Fin 1) u).trans ?_
  exact Finset.sum_congr rfl fun k _ => by rw [transpose_ix3_021_apply]

/-- The final quotient. -/
theorem pay6_at (num : Vec Ideal S32x512 .f32) (den : Vec Ideal S32x1 .f32) (p : Fin 32) (u : Fin 512) :
    k0_pay6 num den (ix2 p u) = Ideal.div (num (ix2 p u)) (den (ix2 p (0 : Fin 1))) := by
  unfold k0_pay6
  show Ideal.div _ _ = _
  rw [broadcastTo_a1_ab_apply]

/-- The two resets store zeros. -/
theorem pay1_at (i : S32x512.Idx) : k0_pay1 (F := Ideal) i = 0 := by
  unfold k0_pay1
  rw [shapeCast_self]
  exact Ideal.ofBits_zero_f32

theorem pay2_at (i : S32x1.Idx) : k0_pay2 (F := Ideal) i = 0 := by
  unfold k0_pay2
  rw [shapeCast_self]
  exact Ideal.ofBits_zero_f32

end Cert.KernelIdeal.Pay
end
-- ==== Proof.KernelAccum.lean ====
/-
  The kernel's result array.  Along the eight time tiles of a batch tile the two carried buffers accumulate: after
  the time tile j the numerator buffer holds, at (p, u), the sum over the tiles 0..j of
  sum_k weight(r, 256 j' + k) * x(r, 256 j' + k, u)  for the row r = 32 i + p, and the denominator buffer the sum of
  the weights alone; both start from the zero stored at the tile j = 0.  At j = 7 the block written back is their
  quotient, which is the pooled value of row r; the eight write-backs cover the 256 rows.
-/
import proofs.«107686_j22308060136260_2_alg».proof.Proof.Gen.KernelIdeal.Value
import proofs.«107686_j22308060136260_2_alg».proof.Proof.KernelBlocks
import proofs.«107686_j22308060136260_2_alg».proof.Proof.KernelPieces
import proofs.«107686_j22308060136260_2_alg».proof.Proof.KernelPay
import proofs.«107686_j22308060136260_2_alg».proof.Proof.Pool

noncomputable section

namespace Cert.KernelIdeal.Accum

open Cert.KernelIdeal Cert.KernelIdeal.Gen Idealize.ShloMosaic Idealize.ShloMosaic.TcCoe Idealize.SL.Sem Idealize.ShloMosaic.ValueIdx
open Idealize.ShloMosaic.Pipeline (Dat)
open Cert.Pool (row col upTo tileNum tileDen wgt)
open Cert.KernelIdeal.Blocks (ti tj)

variable (m : (ℓ : Loc nD τ sig) → Buf (Elt Ideal) ℓ) (ρ : Dev nD → PrngReg)

/-- The three argument arrays on a core. -/
abbrev aX (c : Dev nD) : Cert.Pool.SX.Idx → EReal := m ((c : Thread nD τ).loc main_arg0)
abbrev aW (c : Dev nD) : Cert.Pool.SW.Idx → EReal := m ((c : Thread nD τ).loc main_arg1)
abbrev aB (c : Dev nD) : Cert.Pool.SB.Idx → EReal := m ((c : Thread nD τ).loc main_arg2)

/-- The weight the body computes at entry (p, k) of a point's blocks is the weight of the arrays' entry. -/
theorem weight_at (c : Dev nD) (t : Fin cfg0.N) (p : Fin 32) (k : Fin 256) (z : Fin 1) :
    k0_pay3 (iblk m c 0 t) (iblk m c 1 t) (iblk m c 2 t) (ix3 p k z) = wgt (aX m c) (aW m c) (aB m c) (row (ti t) p) (col (tj t) k) := by
  refine (Pay.pay3_at (iblk m c 0 t) (iblk m c 1 t) (iblk m c 2 t) p k z).trans ?_
  unfold Cert.Pool.wgt Cert.Pool.act Cert.Pool.score
  rw [Blocks.bblock_at m c t k 0 0]
  refine congrArg (fun s => Ideal.exp (Ideal.tanh (s + _))) (Finset.sum_congr rfl fun u _ => ?_)
  rw [Blocks.xblock_at, Blocks.wblock_at]

/-- One update of the numerator buffer adds the point's time tile. -/
theorem numer_step (c : Dev nD) (t : Fin cfg0.N) (acc : Vec Ideal S32x512 .f32) (p : Fin 32) (u : Fin 512) :
    k0_pay5 (iblk m c 0 t) (iblk m c 1 t) (iblk m c 2 t) acc (ix2 p u)
      = acc (ix2 p u) + tileNum (aX m c) (aW m c) (aB m c) (row (ti t) p) u (tj t) := by
  refine (Pay.pay5_at (iblk m c 0 t) (iblk m c 1 t) (iblk m c 2 t) acc p u).trans ?_
  unfold Cert.Pool.tileNum
  refine congrArg (acc (ix2 p u) + ·) (Finset.sum_congr rfl fun k _ => ?_)
  rw [weight_at, Blocks.xblock_at]

/-- One update of the denominator buffer adds the point's time tile. -/
theorem denom_step (c : Dev nD) (t : Fin cfg0.N) (acc : Vec Ideal S32x1 .f32) (p : Fin 32) (z : Fin 1) :
    k0_pay4 (iblk m c 0 t) (iblk m c 1 t) (iblk m c 2 t) acc (ix2 p z)
      = acc (ix2 p z) + tileDen (aX m c) (aW m c) (aB m c) (row (ti t) p) (tj t) := by
  refine (Pay.pay4_at (iblk m c 0 t) (iblk m c 1 t) (iblk m c 2 t) acc p z).trans ?_
  unfold Cert.Pool.tileDen
  refine congrArg (acc (ix2 p z) + ·) (Finset.sum_congr rfl fun k _ => ?_)
  rw [weight_at]

/-- At a batch tile's first point the buffers are updated from zero; -/
theorem carried_first (c : Dev nD) (t : Fin cfg0.N) (h0 : t.val % 8 = 0) :
    (outsAt0 m c t.val t.isLt).2.1 = k0_pay5 (iblk m c 0 t) (iblk m c 1 t) (iblk m c 2 t) (k0_pay1 (F := Ideal))
    ∧ (outsAt0 m c t.val t.isLt).2.2 = k0_pay4 (iblk m c 0 t) (iblk m c 1 t) (iblk m c 2 t) (k0_pay2 (F := Ideal)) := by
  have h1 : ¬t.val % 8 = 7 := by omega
  rw [outsAt0_A m c t h0 h1]
  dsimp only
  exact ⟨Pieces.numer_first c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (iblk m c 2 t),
    Pieces.denom_first c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (iblk m c 2 t)⟩

/-- at every other point from what the point before left. -/
theorem carried_next (c : Dev nD) (t : Fin cfg0.N) (h0 : ¬t.val % 8 = 0) :
    (outsAt0 m c t.val t.isLt).2.1
        = k0_pay5 (iblk m c 0 t) (iblk m c 1 t) (iblk m c 2 t) (outsAt0 m c (t.val - 1) (Nat.lt_of_le_of_lt (Nat.sub_le _ _) t.isLt)).2.1
    ∧ (outsAt0 m c t.val t.isLt).2.2
        = k0_pay4 (iblk m c 0 t) (iblk m c 1 t) (iblk m c 2 t) (outsAt0 m c (t.val - 1) (Nat.lt_of_le_of_lt (Nat.sub_le _ _) t.isLt)).2.2 := by
  by_cases h1 : t.val % 8 = 7
  · rw [outsAt0_C m c t h0 h1]
    dsimp only
    exact ⟨Pieces.numer_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (iblk m c 2 t) _ _,
      Pieces.denom_last c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (iblk m c 2 t) _ _⟩
  · rw [outsAt0_B m c t h0 h1]
    dsimp only
    exact ⟨Pieces.numer_mid c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (iblk m c 2 t) _ _,
      Pieces.denom_mid c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (iblk m c 2 t) _ _⟩

/-- At a batch tile's last point the output block is the quotient of the two buffers as the point leaves them. -/
theorem out_quotient (c : Dev nD) (t : Fin cfg0.N) (h1 : t.val % 8 = 7) :
    (outsAt0 m c t.val t.isLt).1 = k0_pay6 (outsAt0 m c t.val t.isLt).2.1 (outsAt0 m c t.val t.isLt).2.2 := by
  have h0 : ¬t.val % 8 = 0 := by omega
  rw [outsAt0_C m c t h0 h1]
  dsimp only
  rw [Pieces.out_last, Pieces.numer_last, Pieces.denom_last]

/-- THE ACCUMULATION: after point n = 8 i + j the two buffers hold the sums over the time tiles 0..j of batch tile i. -/
theorem accum (c : Dev nD) : ∀ (n : ℕ) (hn : n < cfg0.N) (i : Fin 8), i.val = n / 8 →
    (∀ (p : Fin 32) (u : Fin 512), (outsAt0 m c n hn).2.1 (ix2 p u)
        = upTo (fun j => tileNum (aX m c) (aW m c) (aB m c) (row i p) u j) (n % 8))
    ∧ (∀ (p : Fin 32) (z : Fin 1), (outsAt0 m c n hn).2.2 (ix2 p z)
        = upTo (fun j => tileDen (aX m c) (aW m c) (aB m c) (row i p) j) (n % 8)) := by
  intro n
  induction n with
  | zero =>
    intro hn i hi
    have hti : ti (⟨0, hn⟩ : Fin cfg0.N) = i := Fin.ext (by show 0 / 8 = i.val; omega)
    have htj : tj (⟨0, hn⟩ : Fin cfg0.N) = (0 : Fin 8) := Fin.ext rfl
    obtain ⟨eN, eD⟩ := carried_first m c ⟨0, hn⟩ rfl
    refine ⟨fun p u => ?_, fun p z => ?_⟩
    · refine (congrFun eN (ix2 p u)).trans ?_
      rw [numer_step, Pay.pay1_at, zero_add, hti, htj]
      exact (Cert.Pool.upTo_zero _).symm
    · refine (congrFun eD (ix2 p z)).trans ?_
      rw [denom_step, Pay.pay2_at, zero_add, hti, htj]
      exact (Cert.Pool.upTo_zero _).symm
  | succ n ih =>
    intro hn i hi
    have hN : n + 1 < 64 := lt_of_lt_of_eq hn (show cfg0.N = 64 from N_0)
    have hti : ti (⟨n + 1, hn⟩ : Fin cfg0.N) = i := Fin.ext (by show (n + 1) / 8 = i.val; omega)
    by_cases h0 : (n + 1) % 8 = 0
    · have htj : tj (⟨n + 1, hn⟩ : Fin cfg0.N) = (0 : Fin 8) := Fin.ext h0
      obtain ⟨eN, eD⟩ := carried_first m c ⟨n + 1, hn⟩ h0
      rw [h0]
      refine ⟨fun p u => ?_, fun p z => ?_⟩
      · refine (congrFun eN (ix2 p u)).trans ?_
        rw [numer_step, Pay.pay1_at, zero_add, hti, htj]
        exact (Cert.Pool.upTo_zero _).symm
      · refine (congrFun eD (ix2 p z)).trans ?_
        rw [denom_step, Pay.pay2_at, zero_add, hti, htj]
        exact (Cert.Pool.upTo_zero _).symm
    · obtain ⟨eN, eD⟩ := carried_next m c ⟨n + 1, hn⟩ h0
      obtain ⟨ihN, ihD⟩ := ih (Nat.lt_of_succ_lt hn) i (by omega)
      have hm : (n + 1) % 8 = n % 8 + 1 := by omega
      have hlt : n % 8 + 1 < 8 := by omega
      have htj : tj (⟨n + 1, hn⟩ : Fin cfg0.N) = (⟨n % 8 + 1, hlt⟩ : Fin 8) := Fin.ext hm
      rw [hm]
      refine ⟨fun p u => ?_, fun p z => ?_⟩
      · refine (congrFun eN (ix2 p u)).trans ?_
        rw [numer_step, hti, htj, Cert.Pool.upTo_succ _ _ hlt]
        exact congrArg (· + _) (ihN p u)
      · refine (congrFun eD (ix2 p z)).trans ?_
        rw [denom_step, hti, htj, Cert.Pool.upTo_succ _ _ hlt]
        exact congrArg (· + _) (ihD p z)

/-- The block a batch tile's last point writes back holds the pooled values of the tile's rows. -/
theorem out_at (c : Dev nD) (t : Fin cfg0.N) (h1 : t.val % 8 = 7) (p : Fin 32) (u : Fin 512) :
    (outsAt0 m c t.val t.isLt).1 (ix2 p u) = Cert.Pool.pooledAt (aX m c) (aW m c) (aB m c) (row (ti t) p) u := by
  obtain ⟨hN, hD⟩ := accum m c t.val t.isLt (ti t) rfl
  refine (congrFun (out_quotient m c t h1) (ix2 p u)).trans ?_
  rw [Pay.pay6_at, hN p u, hD p 0, h1, Cert.Pool.upTo_seven, Cert.Pool.upTo_seven]
  rfl

/-- WHAT A WRITE-BACK WRITES is its block of the pooled array. -/
theorem flushed_eq (c : Dev nD) (t : Fin cfg0.N) (hf : (cfg0.win 3).flush t = true) :
    (dats m 0 c).flushed 3 t
      = ((cfg0.win 3).blk t).view.read (Elt Ideal) (Cert.Pool.pooled (aX m c) (aW m c) (aB m c)) := by
  have h1 : t.val % 8 = 7 := (flush0_3 t).mp hf
  rw [Value.flushed3]
  funext y
  show (outsAt0 m c t.val t.isLt).1 y = Cert.Pool.pooled (aX m c) (aW m c) (aB m c) (((cfg0.win 3).blk t).view.emb y)
  refine (congrArg (outsAt0 m c t.val t.isLt).1 (eq_ix2 y)).trans ((out_at m c t h1 (y 0) (y 1)).trans ?_)
  show Cert.Pool.pooledAt _ _ _ _ _ = Cert.Pool.pooledAt _ _ _ _ _
  congr 1
  · apply Fin.ext
    show 32 * (t.val / 8) + (y 0).val = win0_3.index t 0 * 32 + 1 * (y 0).val
    rw [(Blocks.idx_o t).1]; omega
  · apply Fin.ext
    show (y 1).val = win0_3.index t 1 * 512 + 1 * (y 1).val
    rw [(Blocks.idx_o t).2]; omega

/-- An index of the result array is in point t's block iff each coordinate is in the block's range. -/
theorem mem_blk (t : Fin cfg0.N) (i : S256x512.Idx) :
    i ∈ ((cfg0.win 3).blk t).view.set
      ↔ ∀ a : Fin 2, win0_3.index t a * S32x512.size a ≤ (i a).val ∧ (i a).val < win0_3.index t a * S32x512.size a + S32x512.size a := by
  show i ∈ ((View.whole main_v1).slice (win0_3.rect t)).set ↔ _
  rw [View.set_slice_whole, Rect.mem_set_unit]
  exact Iff.rfl

/-- Row r is written back by the last point of its batch tile. -/
theorem cover (i : S256x512.Idx) : ∃ t : Fin cfg0.N, (cfg0.win 3).flush t = true ∧ i ∈ ((cfg0.win 3).blk t).view.set := by
  have hi0 : (i 0).val < 256 := (i 0).isLt
  have hi1 : (i 1).val < 512 := (i 1).isLt
  have hN : cfg0.N = 64 := N_0
  refine ⟨⟨8 * ((i 0).val / 32) + 7, by rw [hN]; omega⟩, (flush0_3 _).mpr (by show (8 * ((i 0).val / 32) + 7) % 8 = 7; omega), ?_⟩
  rw [mem_blk]
  intro a
  match a with
  | ⟨0, _⟩ =>
    show win0_3.index _ 0 * 32 ≤ (i 0).val ∧ (i 0).val < win0_3.index _ 0 * 32 + 32
    rw [(Blocks.idx_o _).1]
    show (8 * ((i 0).val / 32) + 7) / 8 * 32 ≤ (i 0).val ∧ (i 0).val < (8 * ((i 0).val / 32) + 7) / 8 * 32 + 32
    omega
  | ⟨1, _⟩ =>
    show win0_3.index _ 1 * 512 ≤ (i 1).val ∧ (i 1).val < win0_3.index _ 1 * 512 + 512
    rw [(Blocks.idx_o _).2]
    omega

/-- THE RESULT ARRAY after the run is the pooled array. -/
theorem final (c : Dev nD) : (dats m 0 c).arrAt 3 cfg0.N = Cert.Pool.pooled (aX m c) (aW m c) (aB m c) :=
  (dats m 0 c).arrAt_eq_of_cover 3 (Cert.Pool.pooled (aX m c) (aW m c) (aB m c)) (flushed_eq m c) cover

/-- The run, read: the result array is the pooled array of the arguments, which are unchanged. -/
theorem run : θ_run defs (onTc (τ := τ) (main (F := Ideal))) ⟨m, fun _ => 0, ρ⟩ fun r => ∀ c : Dev nD,
      r.2.mem ((c : Thread nD τ).loc main_v1) = Cert.Pool.pooled (aX m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Accum

end
-- ==== Proof.RefPool.lean ====
/-
  The reference's result read at an index.  Its stages are: the scores as one product, the bias added and tanh taken
  (the activations); the largest activation of each row, taken from -∞; the activations shifted by it and
  exponentiated; their sum over time; the quotient (the softmax); the entries times the softmax, summed over time.
  Read at (r, u) this is the shifted-softmax form of the pooled value, the shift being the row's largest activation;
  that largest activation is a real number when the activations are, and then the form is the pooled value.
-/
import proofs.«107686_j22308060136260_2_alg».proof.Proof.Gen.ReferenceIdeal.Read
import proofs.«107686_j22308060136260_2_alg».proof.Proof.LibMergeAxes
import proofs.«107686_j22308060136260_2_alg».proof.Proof.Pool

noncomputable section

namespace Cert.ReferenceIdeal.RefPool

open Cert.ReferenceIdeal Cert.ReferenceIdeal.Gen Cert.ReferenceIdeal.Read Idealize.ShloMosaic Idealize.ShloMosaic.ValueIdx

variable (x0 : FVec Ideal S256x2048x512 .f32) (x1 : FVec Ideal S512x1 .f32) (x2 : FVec Ideal S2048x1 .f32)

/-- The shift the reference's softmax uses: the largest activation of the row, from -∞. -/
def rowMax (r : Fin 256) : EReal := val_main_v7 (F := Ideal) x0 x1 x2 (ix2 r (0 : Fin 1))

/-- The activations. -/
theorem act_at (r : Fin 256) (t : Fin 2048) (z : Fin 1) :
    val_main_v4 (F := Ideal) x0 x1 x2 (ix3 r t z) = Cert.Pool.act x0 x1 x2 r t := by
  have hz : z = 0 := Subsingleton.elim _ _
  subst hz
  have el : ∀ k : Fin 512, lidx_main_v0 (ix3 r t (0 : Fin 1)) k = ix3 r t k := fun k =>
    funext fun a => Fin.ext (by match a with | ⟨0, _⟩ => rfl | ⟨1, _⟩ => rfl | ⟨2, _⟩ => rfl)
  have er : ∀ k : Fin 512, ridx_main_v0 (ix3 r t (0 : Fin 1)) k = ix2 k (0 : Fin 1) := fun k =>
    funext fun a => Fin.ext (by match a with | ⟨0, _⟩ => rfl | ⟨1, _⟩ => rfl)
  have eb : idx_main_v1 (idx_main_v2 (ix3 r t (0 : Fin 1))) = ix2 t (0 : Fin 1) :=
    funext fun a => Fin.ext (by match a with | ⟨0, _⟩ => rfl | ⟨1, _⟩ => rfl)
  rw [val_main_v4_apply, val_main_v3_apply, val_main_v0_apply, val_main_v2_apply, val_main_v1_apply]
  unfold Cert.Pool.act Cert.Pool.score
  simp only [el, er, eb, Ideal.hostUnary_tanh_def, Ideal.addf_def]

/-- The shifted and exponentiated activations. -/
theorem shifted_at (r : Fin 256) (t : Fin 2048) (z : Fin 1) :
    val_main_v11 (F := Ideal) x0 x1 x2 (ix3 r t z) = Ideal.exp (Cert.Pool.act x0 x1 x2 r t - rowMax x0 x1 x2 r) := by
  have em : idx_main_v8 (idx_main_v9 (ix3 r t z)) = ix2 r (0 : Fin 1) :=
    funext fun a => Fin.ext (by match a with | ⟨0, _⟩ => rfl | ⟨1, _⟩ => rfl)
  rw [val_main_v11_apply, val_main_v10_apply, val_main_v9_apply, val_main_v8_apply, act_at, em]
  simp only [Ideal.hostUnary_exp_def, Ideal.subf_def]
  rfl

/-- Their sum over time. -/
theorem normalizer_at (r : Fin 256) (z : Fin 1) :
    val_main_v12 (F := Ideal) x0 x1 x2 (ix2 r z)
      = 0 + ∑ s : Fin 2048, Ideal.exp (Cert.Pool.act x0 x1 x2 r s - rowMax x0 x1 x2 r) := by
  have ei : ∀ k : Fin 2048, idx_main_v12 (ix2 r z) k = ix3 r k z := fun k =>
    funext fun a => Fin.ext (by match a with | ⟨0, _⟩ => rfl | ⟨1, _⟩ => rfl | ⟨2, _⟩ => rfl)
  rw [val_main_v12_apply, val_main_cst_1_apply]
  simp only [ei, shifted_at, Ideal.ofBits_def, Ideal.ofBits_zero_f32]

/-- The softmax. -/
theorem softmax_at (r : Fin 256) (t : Fin 2048) (z : Fin 1) :
    val_main_v15 (F := Ideal) x0 x1 x2 (ix3 r t z)
      = Ideal.div (Ideal.exp (Cert.Pool.act x0 x1 x2 r t - rowMax x0 x1 x2 r))
          (0 + ∑ s : Fin 2048, Ideal.exp (Cert.Pool.act x0 x1 x2 r s - rowMax x0 x1 x2 r)) := by
  have en : idx_main_v13 (idx_main_v14 (ix3 r t z)) = ix2 r (0 : Fin 1) :=
    funext fun a => Fin.ext (by match a with | ⟨0, _⟩ => rfl | ⟨1, _⟩ => rfl)
  rw [val_main_v15_apply, val_main_v14_apply, val_main_v13_apply, en, shifted_at, normalizer_at]
  rfl

/-- The result: the shifted-softmax form of the pooled value. -/
theorem result_at (r : Fin 256) (u : Fin 512) :
    val_main_v18 (F := Ideal) x0 x1 x2 (ix2 r u) = Cert.Pool.softPooledAt x0 x1 x2 (rowMax x0 x1 x2) r u := by
  have ei : ∀ k : Fin 2048, idx_main_v18 (ix2 r u) k = ix3 r k u := fun k =>
    funext fun a => Fin.ext (by match a with | ⟨0, _⟩ => rfl | ⟨1, _⟩ => rfl | ⟨2, _⟩ => rfl)
  have eb : ∀ k : Fin 2048, idx_main_v16 (ix3 r k u) = ix3 r k (0 : Fin 1) := fun k =>
    funext fun a => Fin.ext (by match a with | ⟨0, _⟩ => rfl | ⟨1, _⟩ => rfl | ⟨2, _⟩ => rfl)
  rw [val_main_v18_apply, val_main_cst_2_apply]
  unfold Cert.Pool.softPooledAt
  simp only [ei, val_main_v17_apply, val_main_v16_apply, eb, softmax_at, Ideal.ofBits_def, Ideal.ofBits_zero_f32, Ideal.mulf_def]

/-- The pattern of -∞. -/
theorem ofBits_neg_inf : Ideal.ofBits .f32 0xFF800000#32 = (⊥ : EReal) := by
  simp [Ideal.ofBits, Ideal.ieee]

/-- The shift is the largest activation of the row, from -∞. -/
theorem rowMax_eq (r : Fin 256) :
    rowMax x0 x1 x2 r
      = max (⊥ : EReal) ((Finset.univ : Finset (Fin 2048)).fold max ⊥ (fun k => Cert.Pool.act x0 x1 x2 r k)) := by
  have hred : S256x2048x1.Reduces [1] S256x1 := by decide
  unfold rowMax
  rw [val_main_v7_apply, val_main_v6_apply, val_main_cst_0_apply]
  unfold val_main_v5
  rw [Host.reduce_eq_fold_single FloatOps.maximumf _ _ reducesTo_S256x2048x1_S256x1_d1 hred h_S_ (ix2 r (0 : Fin 1)),
    val_main_cst_apply]
  have ef : (val_main_v4 (F := Ideal) x0 x1 x2 ∘ hred.lift (ix2 r (0 : Fin 1))) = fun k => Cert.Pool.act x0 x1 x2 r k :=
    funext fun k =>
      (congrArg (val_main_v4 (F := Ideal) x0 x1 x2) (Cert.LibMergeAxes.lift3_axis1 hred r 0 k)).trans (act_at x0 x1 x2 r k 0)
  rw [ef]
  show max (Ideal.ofBits .f32 0xFF800000#32) (Finset.fold max (Ideal.ofBits .f32 0xFF800000#32) _ _) = _
  rw [ofBits_neg_inf]
  rfl

/-- On real arrays the reference's result is the pooled array. -/
theorem result_eq (hX : ∀ i, ∃ q : ℝ, x0 i = q) (hW : ∀ i, ∃ q : ℝ, x1 i = q) (hB : ∀ i, ∃ q : ℝ, x2 i = q) :
    val_main_v18 (F := Ideal) x0 x1 x2 = Cert.Pool.pooled x0 x1 x2 := by
  have hM : ∀ r, ∃ q : ℝ, rowMax x0 x1 x2 r = q := fun r => by
    rw [rowMax_eq]
    exact Cert.Pool.rowMax_real _ (fun k => Cert.Pool.act_real x0 x1 x2 hX hW hB r k)
  funext y
  refine (congrArg (val_main_v18 (F := Ideal) x0 x1 x2) (eq_ix2 y)).trans ((result_at x0 x1 x2 (y 0) (y 1)).trans ?_)
  exact congrFun (Cert.Pool.softPooled_eq_pooled x0 x1 x2 (rowMax x0 x1 x2) hX hW hB hM) y

end Cert.ReferenceIdeal.RefPool

end
-- ==== Proof.Finite.lean ====
/-
  The precondition read back: when the printed predicate "every entry of x, W and b has absolute value below +∞" holds
  (its result is 1), every entry of the three arrays is a real number.  An extended real is -∞, +∞ or a real, and at
  both infinities the absolute value is +∞, which is not below +∞.
-/
import proofs.«107686_j22308060136260_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic

instance : Subsingleton S_.Idx := ⟨fun a b => funext fun d => d.elim0⟩

/-- The pattern of +∞. -/
theorem ofBits_pos_inf : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ q : ℝ, x = q := by
  rw [ofBits_pos_inf] at h
  induction x using EReal.rec with
  | bot => simp [Ideal.cmp] at h
  | top => simp [Ideal.cmp] at h
  | coe r => exact ⟨r, rfl⟩

variable [Facts]

/-- The precondition gives real entries. -/
theorem real_of_pre (a0 : FVec Ideal S256x2048x512 .f32) (a1 : FVec Ideal S512x1 .f32) (a2 : FVec Ideal S2048x1 .f32)
    (h : fn (F := Ideal) a0 a1 a2 = fun _ => 1#1) :
    (∀ i, ∃ q : ℝ, a0 i = q) ∧ (∀ i, ∃ q : ℝ, a1 i = q) ∧ (∀ i, ∃ q : ℝ, a2 i = q) := by
  have h0 := congrFun h ValueIdx.ix0
  dsimp only [fn] at h0
  obtain ⟨h01, h2⟩ := IntOp.andi_eq_one.1 h0
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.Pre_finite_inputs.Finite

end
-- ==== Proof.lean ====
/-
  Attention pooling over time: for x[256, 2048, 512], W[512, 1] and b[2048, 1], with the activation
  a(r, t) = tanh (sum_u x(r, t, u) * W(u, 0) + b(t, 0)),  the result at (r, u) is the mean of x(r, ., u) weighted by e^(a(r, .)).

  The kernel walks a grid of 8 batch tiles by 8 time tiles.  Over the time tiles of a batch tile it keeps two running
  sums, of e^a * x and of e^a, starting from zero at the first time tile, and at the last one writes their quotient.  The
  reference takes the softmax of a(r, .) over all 2048 time steps — shifted by the row's largest activation — and sums
  x times it.  Over the extended reals the two agree on finite inputs: every quantity is then a real number, the shift
  cancels between the softmax's numerator and denominator, and dividing by the positive normalizer commutes with the sum
  over time.  (At an infinite entry these steps fail, which is why the precondition is used.)

  The frames are the generated ones; the kernel's result array is `KernelAccum` (the running sums, by induction along the
  grid points), the reference's is `RefPool` (its stages read at an index), the law joining them is `Pool`, and the
  precondition read back as "every entry is real" is `Finite`.
-/
import proofs.«107686_j22308060136260_2_alg».proof.Defs
import proofs.«107686_j22308060136260_2_alg».proof.Proof.Gen.Kernel
import proofs.«107686_j22308060136260_2_alg».proof.Proof.Gen.Kernel.Skeleton
import proofs.«107686_j22308060136260_2_alg».proof.Proof.Gen.Kernel.Launch
import proofs.«107686_j22308060136260_2_alg».proof.Proof.Gen.Kernel.Points
import proofs.«107686_j22308060136260_2_alg».proof.Proof.Gen.Kernel.Frame
import proofs.«107686_j22308060136260_2_alg».proof.Proof.Gen.KernelIdeal
import proofs.«107686_j22308060136260_2_alg».proof.Proof.Gen.KernelIdeal.Skeleton
import proofs.«107686_j22308060136260_2_alg».proof.Proof.Gen.KernelIdeal.Launch
import proofs.«107686_j22308060136260_2_alg».proof.Proof.Gen.KernelIdeal.Points
import proofs.«107686_j22308060136260_2_alg».proof.Proof.Gen.KernelIdeal.Frame
import proofs.«107686_j22308060136260_2_alg».proof.Proof.Gen.ReferenceIdeal
import proofs.«107686_j22308060136260_2_alg».proof.Proof.Gen.Pre_finite_inputs
import proofs.«107686_j22308060136260_2_alg».proof.Proof.Gen.KernelIdeal.Value
import proofs.«107686_j22308060136260_2_alg».proof.Proof.Gen.ReferenceIdeal.Run
import proofs.«107686_j22308060136260_2_alg».proof.Proof.Gen.ReferenceIdeal.Read
import proofs.«107686_j22308060136260_2_alg».proof.Proof.KernelAccum
import proofs.«107686_j22308060136260_2_alg».proof.Proof.RefPool
import proofs.«107686_j22308060136260_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the pooled array of the arguments: the kernel by its running sums, the reference by its
    softmax, which on the real entries the precondition gives is the same weighted mean. -/
theorem algebraic : Cert.algebraic_KernelIdeal_ReferenceIdeal := by
  intro m ρ m' ρ' hpre hagree
  refine ⟨fun c => Cert.Pool.pooled (Cert.KernelIdeal.Accum.aX m c) (Cert.KernelIdeal.Accum.aW m c) (Cert.KernelIdeal.Accum.aB m c),
    Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hB⟩ := Cert.Pre_finite_inputs.Finite.real_of_pre _ _ _ (hpre c)
  rw [(hagree c).1, (hagree c).2.1, (hagree c).2.2, Cert.ReferenceIdeal.Read.val_main_v18_eq]
  exact Cert.ReferenceIdeal.RefPool.result_eq _ _ _ hX hW hB

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
